-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x128 : Shape := ⟨2, ![30000, 128]⟩
abbrev S30000x32x128 : Shape := ⟨3, ![30000, 32, 128]⟩
abbrev S_ : Shape := ⟨0, ![]⟩

class Facts : Prop where
  bcast_S_S30000x128 : S_.BroadcastsInDim S30000x128 (![] : Fin 0 → Fin S30000x128.rank)
  reducesTo_S30000x128_S_d0_1 : S30000x128.ReducesTo [0, 1] S_
  h_S_ : 0 < S_.numel
  bcast_S_S30000x32x128 : S_.BroadcastsInDim S30000x32x128 (![] : Fin 0 → Fin S30000x32x128.rank)
  reducesTo_S30000x32x128_S_d0_1_2 : S30000x32x128.ReducesTo [0, 1, 2] S_

variable [Facts]

def fn {F : FTy → Type} [FloatOps F] (main_arg0 : FVec F S30000x128 .f32) (main_arg1 : FVec F S30000x32x128 .f32) (main_arg2 : FVec F S30000x32x128 .f32) : IVec S_ 1 :=
  let main_v0 : FVec F S30000x128 .f32 := Host.absf main_arg0
  let main_cst : FVec F S_ .f32 := constant S_ .f32 0x7F800000#32
  let main_v1 : FVec F S30000x128 .f32 := broadcastInDim S30000x128 ![] bcast_S_S30000x128 main_cst
  let main_v2 : IVec S30000x128 1 := cmpf .olt main_v0 main_v1
  let main_c : IVec S_ 1 := constantI S_ 1 1#1
  let main_v3 : IVec S_ 1 := (fun x v => Host.reduce IntOp.andi x v reducesTo_S30000x128_S_d0_1 h_S_) main_v2 main_c
  let main_v4 : FVec F S30000x32x128 .f32 := Host.absf main_arg1
  let main_cst_0 : FVec F S_ .f32 := constant S_ .f32 0x7F800000#32
  let main_v5 : FVec F S30000x32x128 .f32 := broadcastInDim S30000x32x128 ![] bcast_S_S30000x32x128 main_cst_0
  let main_v6 : IVec S30000x32x128 1 := cmpf .olt main_v4 main_v5
  let main_c_1 : IVec S_ 1 := constantI S_ 1 1#1
  let main_v7 : IVec S_ 1 := (fun x v => Host.reduce IntOp.andi x v reducesTo_S30000x32x128_S_d0_1_2 h_S_) main_v6 main_c_1
  let main_v8 : IVec S_ 1 := andi main_v3 main_v7
  let main_v9 : FVec F S30000x32x128 .f32 := Host.absf main_arg2
  let main_cst_2 : FVec F S_ .f32 := constant S_ .f32 0x7F800000#32
  let main_v10 : FVec F S30000x32x128 .f32 := broadcastInDim S30000x32x128 ![] bcast_S_S30000x32x128 main_cst_2
  let main_v11 : IVec S30000x32x128 1 := cmpf .olt main_v9 main_v10
  let main_c_3 : IVec S_ 1 := constantI S_ 1 1#1
  let main_v12 : IVec S_ 1 := (fun x v => Host.reduce IntOp.andi x v reducesTo_S30000x32x128_S_d0_1_2 h_S_) main_v11 main_c_3
  let main_v13 : IVec S_ 1 := andi main_v8 main_v12
  main_v13
-- ==== Kernel.lean ====
abbrev S30000x128 : Shape := ⟨2, ![30000, 128]⟩
abbrev S30000x32x128 : Shape := ⟨3, ![30000, 32, 128]⟩
abbrev S240x128 : Shape := ⟨2, ![240, 128]⟩
abbrev S240x32x128 : Shape := ⟨3, ![240, 32, 128]⟩
abbrev S240 : Shape := ⟨1, ![240]⟩
abbrev S240x1 : Shape := ⟨2, ![240, 1]⟩
abbrev S240x1x1 : Shape := ⟨3, ![240, 1, 1]⟩
abbrev S240x32 : Shape := ⟨2, ![240, 32]⟩
abbrev S240x32x1 : Shape := ⟨3, ![240, 32, 1]⟩

abbrev nBuf : Space → Nat
  | .hbm => 4
  | .vmem => 8
  | .smem => 0
  | _ => 0

abbrev bufTy : (tb : Table) → Fin (tcTables nBuf tb) → BufTy
  | .hbm, ⟨0, _⟩ => ⟨S30000x128, .f32⟩
  | .hbm, ⟨1, _⟩ => ⟨S30000x32x128, .f32⟩
  | .hbm, ⟨2, _⟩ => ⟨S30000x32x128, .f32⟩
  | .hbm, ⟨3, _⟩ => ⟨S30000x128, .f32⟩
  | .local _ .vmem, ⟨0, _⟩ => ⟨S240x128, .f32⟩
  | .local _ .vmem, ⟨1, _⟩ => ⟨S240x128, .f32⟩
  | .local _ .vmem, ⟨2, _⟩ => ⟨S240x32x128, .f32⟩
  | .local _ .vmem, ⟨3, _⟩ => ⟨S240x32x128, .f32⟩
  | .local _ .vmem, ⟨4, _⟩ => ⟨S240x32x128, .f32⟩
  | .local _ .vmem, ⟨5, _⟩ => ⟨S240x32x128, .f32⟩
  | .local _ .vmem, ⟨6, _⟩ => ⟨S240x128, .f32⟩
  | .local _ .vmem, ⟨7, _⟩ => ⟨S240x128, .f32⟩
  | _, _ => ⟨S30000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S240x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S240x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S240x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S240x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S240x128_S240x128_0_0 : ∀ a, (![0, 0] : Fin 2 → Nat) a + S240x128.size a ≤ S240x128.size a
  h_S240x128 : 0 < S240x128.numel
  inb_S240x32x128_S240x32x128_0_0_0 : ∀ a, (![0, 0, 0] : Fin 3 → Nat) a + S240x32x128.size a ≤ S240x32x128.size a
  h_S240x32x128 : 0 < S240x32x128.numel
  reduces_S240x128_S240 : S240x128.Reduces [1] S240
  shapeCasts_S240_S240x1 : S240.ShapeCasts S240x1
  shapeCasts_S240x1_S240x1x1 : S240x1.ShapeCasts S240x1x1
  reduces_S240x32x128_S240x32 : S240x32x128.Reduces [2] S240x32
  shapeCasts_S240x32_S240x32x1 : S240x32.ShapeCasts S240x32x1
  broadcasts_S240x1x1_S240x32x1 : S240x1x1.Broadcasts S240x32x1
  reduces_S240x32x1_S240x1 : S240x32x1.Reduces [1] S240x1
  broadcasts_S240x32x1_S240x32x128 : S240x32x1.Broadcasts S240x32x128
  reduces_S240x32x128_S240x128 : S240x32x128.Reduces [1] S240x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S240x128.size a ≤ S30000x128.size a
  hwx0_0 : ∀ i : grid0.Coords, EltTy.bits .f32 = 32 ∨ (Rect.block (s := S30000x128) S240x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S240x32x128.size a ≤ S30000x32x128.size a
  hwx0_1 : ∀ i : grid0.Coords, EltTy.bits .f32 = 32 ∨ (Rect.block (s := S30000x32x128) S240x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S240x32x128.size a ≤ S30000x32x128.size a
  hwx0_2 : ∀ i : grid0.Coords, EltTy.bits .f32 = 32 ∨ (Rect.block (s := S30000x32x128) S240x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S240x128.size a ≤ S30000x128.size a
  hwx0_3 : ∀ i : grid0.Coords, EltTy.bits .f32 = 32 ∨ (Rect.block (s := S30000x128) S240x128.size (cc0_transform_3 i) (hinb0_3 i)).WholeWords (EltTy.packing .f32)

variable [Facts₀]

abbrev win0_0 : Pipeline.Window sig grid0 :=
  Pipeline.Window.ofSpec (Memref.whole main_arg0) S240x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S240x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S240x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S240x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S30000x128 : Shape := ⟨2, ![30000, 128]⟩
abbrev S30000x32x128 : Shape := ⟨3, ![30000, 32, 128]⟩
abbrev S30000x1x128 : Shape := ⟨3, ![30000, 1, 128]⟩
abbrev S_ : Shape := ⟨0, ![]⟩
abbrev S30000x32 : Shape := ⟨2, ![30000, 32]⟩
abbrev S30000x32x1 : Shape := ⟨3, ![30000, 32, 1]⟩
abbrev S30000x1 : Shape := ⟨2, ![30000, 1]⟩
abbrev S30000x1x1 : Shape := ⟨3, ![30000, 1, 1]⟩

abbrev nBuf : Space → Nat
  | .hbm => 35
  | .vmem => 0
  | .smem => 0
  | _ => 0

abbrev bufTy : (tb : Table) → Fin (tcTables nBuf tb) → BufTy
  | .hbm, ⟨0, _⟩ => ⟨S30000x128, .f32⟩
  | .hbm, ⟨1, _⟩ => ⟨S30000x32x128, .f32⟩
  | .hbm, ⟨2, _⟩ => ⟨S30000x32x128, .f32⟩
  | .hbm, ⟨3, _⟩ => ⟨S30000x1x128, .f32⟩
  | .hbm, ⟨4, _⟩ => ⟨S30000x32x128, .f32⟩
  | .hbm, ⟨5, _⟩ => ⟨S30000x32x128, .f32⟩
  | .hbm, ⟨6, _⟩ => ⟨S_, .f32⟩
  | .hbm, ⟨7, _⟩ => ⟨S30000x32, .f32⟩
  | .hbm, ⟨8, _⟩ => ⟨S30000x32x1, .f32⟩
  | .hbm, ⟨9, _⟩ => ⟨S_, .f32⟩
  | .hbm, ⟨10, _⟩ => ⟨S_, .f32⟩
  | .hbm, ⟨11, _⟩ => ⟨S30000x32x1, .f32⟩
  | .hbm, ⟨12, _⟩ => ⟨S30000x32x1, .i1⟩
  | .hbm, ⟨13, _⟩ => ⟨S_, .f32⟩
  | .hbm, ⟨14, _⟩ => ⟨S30000x32x1, .f32⟩
  | .hbm, ⟨15, _⟩ => ⟨S30000x32x1, .f32⟩
  | .hbm, ⟨16, _⟩ => ⟨S30000x32x1, .f32⟩
  | .hbm, ⟨17, _⟩ => ⟨S_, .f32⟩
  | .hbm, ⟨18, _⟩ => ⟨S30000x1, .f32⟩
  | .hbm, ⟨19, _⟩ => ⟨S_, .f32⟩
  | .hbm, ⟨20, _⟩ => ⟨S30000x1, .f32⟩
  | .hbm, ⟨21, _⟩ => ⟨S30000x1, .f32⟩
  | .hbm, ⟨22, _⟩ => ⟨S30000x1x1, .f32⟩
  | .hbm, ⟨23, _⟩ => ⟨S30000x32x1, .f32⟩
  | .hbm, ⟨24, _⟩ => ⟨S30000x32x1, .f32⟩
  | .hbm, ⟨25, _⟩ => ⟨S30000x32x1, .f32⟩
  | .hbm, ⟨26, _⟩ => ⟨S_, .f32⟩
  | .hbm, ⟨27, _⟩ => ⟨S30000x1, .f32⟩
  | .hbm, ⟨28, _⟩ => ⟨S30000x1x1, .f32⟩
  | .hbm, ⟨29, _⟩ => ⟨S30000x32x1, .f32⟩
  | .hbm, ⟨30, _⟩ => ⟨S30000x32x1, .f32⟩
  | .hbm, ⟨31, _⟩ => ⟨S30000x32x128, .f32⟩
  | .hbm, ⟨32, _⟩ => ⟨S30000x32x128, .f32⟩
  | .hbm, ⟨33, _⟩ => ⟨S_, .f32⟩
  | .hbm, ⟨34, _⟩ => ⟨S30000x128, .f32⟩
  | _, _ => ⟨S30000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩

abbrev nD : Nat := 1
abbrev τ : Topo := Topo.v7x

variable {F : FTy → Type} [FloatOps F]

class Facts₀ : Prop where
  bcast_S30000x128_S30000x1x128_0_2 : S30000x128.BroadcastsInDim S30000x1x128 (![0, 2] : Fin 2 → Fin S30000x1x128.rank)
  bcast_S30000x1x128_S30000x32x128_0_1_2 : S30000x1x128.BroadcastsInDim S30000x32x128 (![0, 1, 2] : Fin 3 → Fin S30000x32x128.rank)
  reducesTo_S30000x32x128_S30000x32_d2 : S30000x32x128.ReducesTo [2] S30000x32
  h_S_ : 0 < S_.numel
  bcast_S30000x32_S30000x32x1_0_1 : S30000x32.BroadcastsInDim S30000x32x1 (![0, 1] : Fin 2 → Fin S30000x32x1.rank)
  bcast_S_S30000x32x1 : S_.BroadcastsInDim S30000x32x1 (![] : Fin 0 → Fin S30000x32x1.rank)
  reducesTo_S30000x32x1_S30000x1_d1 : S30000x32x1.ReducesTo [1] S30000x1
  bcast_S_S30000x1 : S_.BroadcastsInDim S30000x1 (![] : Fin 0 → Fin S30000x1.rank)
  bcast_S30000x1_S30000x1x1_0_2 : S30000x1.BroadcastsInDim S30000x1x1 (![0, 2] : Fin 2 → Fin S30000x1x1.rank)
  bcast_S30000x1x1_S30000x32x1_0_1_2 : S30000x1x1.BroadcastsInDim S30000x32x1 (![0, 1, 2] : Fin 3 → Fin S30000x32x1.rank)
  bcast_S30000x32x1_S30000x32x128_0_1_2 : S30000x32x1.BroadcastsInDim S30000x32x128 (![0, 1, 2] : Fin 3 → Fin S30000x32x128.rank)
  reducesTo_S30000x32x128_S30000x128_d1 : S30000x32x128.ReducesTo [1] S30000x128

variable [Facts₀]

class Facts : Prop extends Facts₀ where

variable [Facts]
-- ==== Proof.Attention.lean ====
/-
  One node's attention, as a function on the extended reals.

  A node has a feature row `a` (K entries) and D neighbours; neighbour `d` has a row `b d` (K entries) and a
  message `f d` (one entry per output column; a column is fixed throughout). The neighbour's score is the sum of
  its row plus the sum of the node's row; the score passes through the leaky rectifier (slope the word
  0x3C23D70A), the D rectified scores are shifted by their maximum, exponentiated and normalised by their sum, and
  the result is the sum over the neighbours of weight times message.

  Two ways of computing it differ only in how the pieces are spelt:
  * the score as ONE sum of `a k + b d k` — equal to the two sums added, because addition on the extended reals is
    commutative and associative (no finiteness is used);
  * the maximum taken once more against the seed of the fold, the word of −∞ — equal to the fold itself, which is
    already at least its seed.
-/
import Idealize.ShloMosaic.PureOps.Ideal
import Idealize.ShloMosaic.PureOps.Ideal.Laws

noncomputable section

open scoped BigOperators

namespace Cert.GatRow

open Idealize.ShloMosaic

/-- The leaky rectifier: `x` where `x ≥ 0`, the slope times `x` elsewhere (the comparison against the zero word and
    the slope word 0x3C23D70A as both programs write them). -/
def leaky (x : EReal) : EReal :=
  Scalar.select (Ideal.cmp .oge x (Ideal.ofBits .f32 0x00000000#32)) x (Ideal.ofBits .f32 0x3C23D70A#32 * x)

/-- The seed of the maximum: the word 0xFF800000. -/
def seed : EReal := Ideal.ofBits .f32 0xFF800000#32

/-- The largest rectified score of the node's neighbours: the fold of `max` from the seed. -/
def peak {D : ℕ} (s : Fin D → EReal) : EReal :=
  (Finset.univ : Finset (Fin D)).fold max seed (fun d => leaky (s d))

/-- Neighbour `d`'s unnormalised weight: the exponential of its rectified score less the largest one. -/
def weight {D : ℕ} (s : Fin D → EReal) (d : Fin D) : EReal := Ideal.exp (leaky (s d) - peak s)

/-- The weighted sum of the messages `f` under the scores `s`: each weight divided by the sum of the weights. -/
def attend {D : ℕ} (s f : Fin D → EReal) : EReal :=
  ∑ d : Fin D, Ideal.div (weight s d) (∑ d' : Fin D, weight s d') * f d

/-- The score of neighbour `d`: the sum of its row plus the sum of the node's row. -/
def score {K D : ℕ} (a : Fin K → EReal) (b : Fin D → Fin K → EReal) (d : Fin D) : EReal :=
  (∑ k : Fin K, b d k) + ∑ k : Fin K, a k

/-- One output entry of the node: the messages attended under those scores. -/
def gat {K D : ℕ} (a : Fin K → EReal) (b : Fin D → Fin K → EReal) (f : Fin D → EReal) : EReal :=
  attend (score a b) f

/-- The sum of the entrywise sums of two rows is the two rows' sums added (in the order the score takes them). -/
theorem sum_add_rows {K : ℕ} (a b : Fin K → EReal) : ∑ k : Fin K, (a k + b k) = (∑ k : Fin K, b k) + ∑ k : Fin K, a k := by
  rw [Finset.sum_add_distrib, add_comm]

/-- The fold of `max` from the seed is at least the seed, so one more `max` against the seed changes nothing. -/
theorem max_seed_peak {D : ℕ} (s : Fin D → EReal) : max seed (peak s) = peak s :=
  max_eq_right ((Finset.le_fold_max seed).mpr (Or.inl le_rfl))

end Cert.GatRow

end
-- ==== Proof.KernelRow.lean ====
/-
  The kernel's body at one entry of its block.

  At a grid point the body holds a block of 240 nodes: their rows `x0` [240, 128], their 32 neighbours' rows
  `x1` [240, 32, 128] and messages `x2` [240, 32, 128]. What it stores is one tree of vector operations of the three,
  read here in five stages, each at an index:
  * the scores [240, 32, 1]: the lane sum of a neighbour's row (viewed with a trailing unit axis) plus the lane sum of
    the node's row (viewed [240, 1, 1] and laid over the 32 neighbours);
  * the rectified scores, entry by entry;
  * the exponentials of the rectified scores less their maximum over the 32 neighbours (the maximum folded from
    the word of −∞, viewed [240, 1, 1] and laid back over the neighbours);
  * the weights: each exponential divided by the node's sum of exponentials (viewed and laid back likewise);
  * the output [240, 128]: the weights laid over the 128 columns, times the messages, summed over the neighbours.
  Read at entry (r, j) the composition is the attention of node r's row, its neighbours' rows and column j of its
  neighbours' messages.
-/
import proofs.«161903_j1451698946380_2_alg».proof.Proof.Gen.KernelIdeal.Skeleton
import proofs.«161903_j1451698946380_2_alg».proof.Proof.Attention
import Idealize.ShloMosaic.Lib.Pipeline.Value
import Idealize.ShloMosaic.Lib.ValueIdx
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.GatRow

/-! ## The stages -/

/-- The block's scores. -/
def blockScores (x0 : FVec Ideal S240x128 .f32) (x1 : FVec Ideal S240x32x128 .f32) : FVec Ideal S240x32x1 .f32 :=
  addf
    (shapeCast S240x32x1 (multiReduction .add [2] S240x32 x1 0x00000000#32 reduces_S240x32x128_S240x32 (.inl rfl) rfl)
      shapeCasts_S240x32_S240x32x1)
    (broadcastTo S240x32x1
      (shapeCast S240x1x1
        (shapeCast S240x1 (multiReduction .add [1] S240 x0 0x00000000#32 reduces_S240x128_S240 (.inl rfl) rfl) shapeCasts_S240_S240x1)
        shapeCasts_S240x1_S240x1x1)
      broadcasts_S240x1x1_S240x32x1)

/-- The rectified scores. -/
def blockRect (s : FVec Ideal S240x32x1 .f32) : FVec Ideal S240x32x1 .f32 :=
  select (cmpf .oge s (broadcast S240x32x1 (Scalar.ofBits (F := Ideal) .f32 0x00000000#32))) s
    (mulf (broadcast S240x32x1 (Scalar.ofBits (F := Ideal) .f32 0x3C23D70A#32)) s)

/-- The exponentials of the rectified scores less their maximum over the neighbours. -/
def blockExp (l : FVec Ideal S240x32x1 .f32) : FVec Ideal S240x32x1 .f32 :=
  exp (subf l
    (broadcastTo S240x32x1
      (shapeCast S240x1x1 (multiReduction .maximumf [1] S240x1 l 0xFF800000#32 reduces_S240x32x1_S240x1 (.inl rfl) rfl)
        shapeCasts_S240x1_S240x1x1)
      broadcasts_S240x1x1_S240x32x1))

/-- The weights. -/
def blockWeights (e : FVec Ideal S240x32x1 .f32) : FVec Ideal S240x32x1 .f32 :=
  divf e
    (broadcastTo S240x32x1
      (shapeCast S240x1x1 (multiReduction .add [1] S240x1 e 0x00000000#32 reduces_S240x32x1_S240x1 (.inl rfl) rfl)
        shapeCasts_S240x1_S240x1x1)
      broadcasts_S240x1x1_S240x32x1)

/-- The block's output. -/
def blockOut (w : FVec Ideal S240x32x1 .f32) (x2 : FVec Ideal S240x32x128 .f32) : FVec Ideal S240x128 .f32 :=
  multiReduction .add [1] S240x128 (mulf (broadcastTo S240x32x128 w broadcasts_S240x32x1_S240x32x128) x2) 0x00000000#32
    reduces_S240x32x128_S240x128 (.inl rfl) rfl

/-- The stored payload is the five stages composed. -/
theorem pay_eq (x0 : FVec Ideal S240x128 .f32) (x1 x2 : FVec Ideal S240x32x128 .f32) :
    k0_pay1 (F := Ideal) x0 x1 x2 = blockOut (blockWeights (blockExp (blockRect (blockScores x0 x1)))) x2 := rfl

/-! ## Layout steps read at an index -/

/-- A value over the nodes, viewed [240, 1, 1] and laid over the 32 neighbours, reads the node's entry. -/
theorem overNeighbours_apply (v : FVec Ideal S240x1 .f32) (r : Fin 240) (d : Fin 32) :
    broadcastTo S240x32x1 (shapeCast S240x1x1 v shapeCasts_S240x1_S240x1x1) broadcasts_S240x1x1_S240x32x1 (ix3 r d (0 : Fin 1))
      = v (ix2 r (0 : Fin 1)) := by
  refine (broadcastTo_apply _ broadcasts_S240x1x1_S240x32x1 (ix3 r d (0 : Fin 1)) (ix3 r (0 : Fin 1) (0 : Fin 1)) ?_).trans ?_
  · intro a; match a with | ⟨0, _⟩ => rfl | ⟨1, _⟩ => rfl | ⟨2, _⟩ => rfl
  · refine shapeCast_apply _ shapeCasts_S240x1_S240x1x1 (ix3 r (0 : Fin 1) (0 : Fin 1)) (ix2 r (0 : Fin 1)) ?_
    rw [Shape.rowMajor_val_two, Shape.rowMajor_val_three]
    show r.val * 1 + 0 = (r.val * 1 + 0) * 1 + 0
    omega

/-! ## The stages read at an index -/

theorem blockScores_apply (x0 : FVec Ideal S240x128 .f32) (x1 : FVec Ideal S240x32x128 .f32) (r : Fin 240) (d : Fin 32) :
    blockScores x0 x1 (ix3 r d (0 : Fin 1))
      = score (fun k : Fin 128 => x0 (ix2 r k)) (fun (d : Fin 32) (k : Fin 128) => x1 (ix3 r d k)) d := by
  unfold blockScores score
  refine (ValueIdx.addf_apply _ _ _).trans ?_
  refine congrArg₂ (fun u v : EReal => u + v) ?_ ?_
  · refine (shapeCast_apply _ shapeCasts_S240x32_S240x32x1 (ix3 r d (0 : Fin 1)) (ix2 r d) ?_).trans ?_
    · rw [Shape.rowMajor_val_two, Shape.rowMajor_val_three]
      show r.val * 32 + d.val = (r.val * 32 + d.val) * 1 + 0
      omega
    · refine (Ideal.multiReduction_add_single x1 _ reduces_S240x32x128_S240x32 _ _ (ix2 r d)).trans ?_
      exact Finset.sum_congr rfl fun k _ => congrArg x1
        (funext fun a => Fin.ext (by match a with | ⟨0, _⟩ => rfl | ⟨1, _⟩ => rfl | ⟨2, _⟩ => rfl))
  · refine (overNeighbours_apply _ r d).trans ?_
    refine (shapeCast_apply _ shapeCasts_S240_S240x1 (ix2 r (0 : Fin 1)) (ix1 r) ?_).trans ?_
    · rw [Shape.rowMajor_val_one, Shape.rowMajor_val_two]
      show r.val = r.val * 1 + 0
      omega
    · refine (Ideal.multiReduction_add_single x0 _ reduces_S240x128_S240 _ _ (ix1 r)).trans ?_
      exact Finset.sum_congr rfl fun k _ => congrArg x0
        (funext fun a => Fin.ext (by match a with | ⟨0, _⟩ => rfl | ⟨1, _⟩ => rfl))

theorem blockRect_apply (s : FVec Ideal S240x32x1 .f32) (i : S240x32x1.Idx) : blockRect s i = leaky (s i) := rfl

theorem blockExp_apply (l : FVec Ideal S240x32x1 .f32) (r : Fin 240) (d : Fin 32) :
    blockExp l (ix3 r d (0 : Fin 1))
      = Ideal.exp (l (ix3 r d (0 : Fin 1)) - (Finset.univ : Finset (Fin 32)).fold max seed (fun d' : Fin 32 => l (ix3 r d' (0 : Fin 1)))) := by
  unfold blockExp
  refine congrArg (fun u : EReal => Ideal.exp (l (ix3 r d (0 : Fin 1)) - u)) ?_
  refine (overNeighbours_apply _ r d).trans ?_
  refine (Ideal.multiReduction_maximumf_single l _ reduces_S240x32x1_S240x1 _ _ (ix2 r (0 : Fin 1))).trans ?_
  exact congrArg ((Finset.univ : Finset (Fin 32)).fold max seed) (funext fun d' => congrArg l
    (funext fun a => Fin.ext (by match a with | ⟨0, _⟩ => rfl | ⟨1, _⟩ => rfl | ⟨2, _⟩ => rfl)))

theorem blockWeights_apply (e : FVec Ideal S240x32x1 .f32) (r : Fin 240) (d : Fin 32) :
    blockWeights e (ix3 r d (0 : Fin 1))
      = Ideal.div (e (ix3 r d (0 : Fin 1))) (∑ d' : Fin 32, e (ix3 r d' (0 : Fin 1))) := by
  unfold blockWeights
  refine congrArg (fun u : EReal => Ideal.div (e (ix3 r d (0 : Fin 1))) u) ?_
  refine (overNeighbours_apply _ r d).trans ?_
  refine (Ideal.multiReduction_add_single e _ reduces_S240x32x1_S240x1 _ _ (ix2 r (0 : Fin 1))).trans ?_
  exact Finset.sum_congr rfl fun d' _ => congrArg e
    (funext fun a => Fin.ext (by match a with | ⟨0, _⟩ => rfl | ⟨1, _⟩ => rfl | ⟨2, _⟩ => rfl))

theorem blockOut_apply (w : FVec Ideal S240x32x1 .f32) (x2 : FVec Ideal S240x32x128 .f32) (r : Fin 240) (j : Fin 128) :
    blockOut w x2 (ix2 r j) = ∑ d : Fin 32, w (ix3 r d (0 : Fin 1)) * x2 (ix3 r d j) := by
  unfold blockOut
  refine (Ideal.multiReduction_add_single _ _ reduces_S240x32x128_S240x128 _ _ (ix2 r j)).trans ?_
  refine Finset.sum_congr rfl fun d _ => ?_
  refine (ValueIdx.mulf_apply _ _ _).trans ?_
  refine congrArg₂ (fun u v : EReal => u * v) ?_ ?_
  · refine broadcastTo_apply w broadcasts_S240x32x1_S240x32x128 _ (ix3 r d (0 : Fin 1)) ?_
    intro a; match a with | ⟨0, _⟩ => rfl | ⟨1, _⟩ => rfl | ⟨2, _⟩ => rfl
  · exact congrArg x2 (funext fun a => Fin.ext (by match a with | ⟨0, _⟩ => rfl | ⟨1, _⟩ => rfl | ⟨2, _⟩ => rfl))

/-! ## The payload at an entry -/

/-- Entry (r, j) of what the body stores is the attention of node r's row, its neighbours' rows and column j of its
    neighbours' messages. -/
theorem pay_apply (x0 : FVec Ideal S240x128 .f32) (x1 x2 : FVec Ideal S240x32x128 .f32) (r : Fin 240) (j : Fin 128) :
    k0_pay1 (F := Ideal) x0 x1 x2 (ix2 r j)
      = gat (fun k : Fin 128 => x0 (ix2 r k)) (fun (d : Fin 32) (k : Fin 128) => x1 (ix3 r d k)) (fun d : Fin 32 => x2 (ix3 r d j)) := by
  rw [pay_eq, blockOut_apply]
  unfold gat attend weight peak
  simp only [blockWeights_apply, blockExp_apply, blockRect_apply, blockScores_apply]

/-- The same with the three blocks' entries named: whatever the node's row, its neighbours' rows and the column of its
    neighbours' messages are known to be. -/
theorem pay_apply_of (x0 : FVec Ideal S240x128 .f32) (x1 x2 : FVec Ideal S240x32x128 .f32) (r : Fin 240) (j : Fin 128)
    (a : Fin 128 → EReal) (b : Fin 32 → Fin 128 → EReal) (f : Fin 32 → EReal)
    (h0 : ∀ k : Fin 128, x0 (ix2 r k) = a k) (h1 : ∀ (d : Fin 32) (k : Fin 128), x1 (ix3 r d k) = b d k)
    (h2 : ∀ d : Fin 32, x2 (ix3 r d j) = f d) :
    k0_pay1 (F := Ideal) x0 x1 x2 (ix2 r j) = gat a b f := by
  rw [pay_apply, show (fun k : Fin 128 => x0 (ix2 r k)) = a from funext h0,
    show (fun (d : Fin 32) (k : Fin 128) => x1 (ix3 r d k)) = b from funext fun d => funext (h1 d),
    show (fun d : Fin 32 => x2 (ix3 r d j)) = f from funext h2]

end Cert.KernelIdeal.Row

end
-- ==== Proof.Whole.lean ====
/-
  The result as one function of the three argument arrays.

  Entry (n, j) of the result [30000, 128] is the attention of node n's row of `a0` [30000, 128], its 32 neighbours'
  rows of `a1` [30000, 32, 128] and column j of its neighbours' messages in `a2` [30000, 32, 128].
-/
import proofs.«161903_j1451698946380_2_alg».proof.Proof.Attention
import Idealize.ShloMosaic.Lib.ValueIdx

noncomputable section

namespace Cert.GatRow

open Idealize.ShloMosaic Idealize.ShloMosaic.ValueIdx

/-- Entry (n, j) of the result, from the node's coordinates. -/
def nodeOut (a0 : (⟨2, ![30000, 128]⟩ : Shape).Idx → EReal) (a1 a2 : (⟨3, ![30000, 32, 128]⟩ : Shape).Idx → EReal)
    (n : Fin 30000) (j : Fin 128) : EReal :=
  gat (fun k : Fin 128 => a0 (ix2 n k)) (fun (d : Fin 32) (k : Fin 128) => a1 (ix3 n d k)) (fun d : Fin 32 => a2 (ix3 n d j))

/-- The result array. -/
def wholeOut (a0 : (⟨2, ![30000, 128]⟩ : Shape).Idx → EReal) (a1 a2 : (⟨3, ![30000, 32, 128]⟩ : Shape).Idx → EReal) :
    (⟨2, ![30000, 128]⟩ : Shape).Idx → EReal :=
  fun i => nodeOut a0 a1 a2 ⟨(i 0).val, idx2_lt0 i⟩ ⟨(i 1).val, idx2_lt1 i⟩

theorem wholeOut_apply (a0 : (⟨2, ![30000, 128]⟩ : Shape).Idx → EReal) (a1 a2 : (⟨3, ![30000, 32, 128]⟩ : Shape).Idx → EReal)
    (n : Fin 30000) (j : Fin 128) : wholeOut a0 a1 a2 (ix2 n j) = nodeOut a0 a1 a2 n j := rfl

end Cert.GatRow

end
-- ==== Proof.KernelArray.lean ====
/-
  From the kernel's blocks to its result array.

  The grid has 125 points; at point t every window's block is block t along the node axis (rows 240·t … 240·t + 239)
  and the whole extent of the other axes. So entry (r, ·) of a point's input block is row 240·t + r of the argument
  array, and what the point writes back is its 240 rows of the whole-array function: entry (r, j) of the stored payload
  is the attention of node 240·t + r at column j. The 125 output blocks cover the array — node n lies in block n / 240 —
  so after the run the result array is that function of the three arguments.
-/
import proofs.«161903_j1451698946380_2_alg».proof.Proof.Gen.KernelIdeal.Value
import proofs.«161903_j1451698946380_2_alg».proof.Proof.KernelRow
import proofs.«161903_j1451698946380_2_alg».proof.Proof.Whole

noncomputable section

namespace Cert.KernelIdeal.Array

open Cert.KernelIdeal Cert.KernelIdeal.Gen Idealize.ShloMosaic Idealize.ShloMosaic.TcCoe Idealize.SL.Sem
open Idealize.ShloMosaic.ValueIdx Cert.GatRow
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps, decided over the grid: at point t every window's block index is t on the node axis and 0
    on the others. -/
theorem block_index : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-! ## The input blocks as rows of the arguments -/

/-- Entry (r, k) of the nodes' block at point t is row 240·t + r of the first argument. -/
theorem nodes_apply (c : Dev nD) (t : Fin cfg0.N) (r : Fin 240) (k : Fin 128) (hb : t.val * 240 + r.val < 30000) :
    (iblk m c 0 t : FVec Ideal S240x128 .f32) (ix2 r k)
      = (m ((c : Thread nD τ).loc main_arg0) : S30000x128.Idx → EReal) (ix2 ⟨t.val * 240 + r.val, hb⟩ k) := by
  obtain ⟨e0, e1, -⟩ := block_index t
  unfold iblk
  rw [View.read_apply]
  show V m c main_arg0 _ = m (c.tc.loc main_arg0) _
  unfold V
  congr 1
  funext a
  apply Fin.ext
  match a with
  | ⟨0, _⟩ => show win0_0.index t (0 : Fin 2) * 240 + 1 * r.val = t.val * 240 + r.val; rw [e0]; omega
  | ⟨1, _⟩ => show win0_0.index t (1 : Fin 2) * 128 + 1 * k.val = k.val; rw [e1]; omega

/-- Entry (r, d, k) of the neighbours' rows' block at point t is row 240·t + r of the second argument. -/
theorem rows_apply (c : Dev nD) (t : Fin cfg0.N) (r : Fin 240) (d : Fin 32) (k : Fin 128) (hb : t.val * 240 + r.val < 30000) :
    (iblk m c 1 t : FVec Ideal S240x32x128 .f32) (ix3 r d k)
      = (m ((c : Thread nD τ).loc main_arg1) : S30000x32x128.Idx → EReal) (ix3 ⟨t.val * 240 + r.val, hb⟩ d k) := by
  obtain ⟨-, -, e0, e1, e2, -⟩ := block_index t
  unfold iblk
  rw [View.read_apply]
  show V m c main_arg1 _ = m (c.tc.loc main_arg1) _
  unfold V
  congr 1
  funext a
  apply Fin.ext
  match a with
  | ⟨0, _⟩ => show win0_1.index t (0 : Fin 3) * 240 + 1 * r.val = t.val * 240 + r.val; rw [e0]; omega
  | ⟨1, _⟩ => show win0_1.index t (1 : Fin 3) * 32 + 1 * d.val = d.val; rw [e1]; omega
  | ⟨2, _⟩ => show win0_1.index t (2 : Fin 3) * 128 + 1 * k.val = k.val; rw [e2]; omega

/-- Entry (r, d, j) of the messages' block at point t is row 240·t + r of the third argument. -/
theorem messages_apply (c : Dev nD) (t : Fin cfg0.N) (r : Fin 240) (d : Fin 32) (j : Fin 128) (hb : t.val * 240 + r.val < 30000) :
    (iblk m c 2 t : FVec Ideal S240x32x128 .f32) (ix3 r d j)
      = (m ((c : Thread nD τ).loc main_arg2) : S30000x32x128.Idx → EReal) (ix3 ⟨t.val * 240 + r.val, hb⟩ d j) := by
  obtain ⟨-, -, -, -, -, e0, e1, e2, -⟩ := block_index t
  unfold iblk
  rw [View.read_apply]
  show V m c main_arg2 _ = m (c.tc.loc main_arg2) _
  unfold V
  congr 1
  funext a
  apply Fin.ext
  match a with
  | ⟨0, _⟩ => show win0_2.index t (0 : Fin 3) * 240 + 1 * r.val = t.val * 240 + r.val; rw [e0]; omega
  | ⟨1, _⟩ => show win0_2.index t (1 : Fin 3) * 32 + 1 * d.val = d.val; rw [e1]; omega
  | ⟨2, _⟩ => show win0_2.index t (2 : Fin 3) * 128 + 1 * j.val = j.val; rw [e2]; omega

/-! ## What a point writes back -/

/-- The result array as the function of the arguments as launched. -/
abbrev target (c : Dev nD) : S30000x128.Idx → EReal :=
  wholeOut (m ((c : Thread nD τ).loc main_arg0)) (m ((c : Thread nD τ).loc main_arg1)) (m ((c : Thread nD τ).loc main_arg2))

/-- Entry (r, j) of the payload of point t's blocks is the result at node 240·t + r, column j. -/
theorem point_apply (c : Dev nD) (t : Fin cfg0.N) (r : Fin 240) (j : Fin 128) (hb : t.val * 240 + r.val < 30000) :
    k0_pay1 (F := Ideal) (iblk m c 0 t) (iblk m c 1 t) (iblk m c 2 t) (ix2 r j)
      = target m c (ix2 ⟨t.val * 240 + r.val, hb⟩ j) :=
  Row.pay_apply_of (iblk m c 0 t) (iblk m c 1 t) (iblk m c 2 t) r j _ _ _
    (fun k => nodes_apply m c t r k hb) (fun d k => rows_apply m c t r d k hb) (fun d => messages_apply m c t r d j hb)

/-- What point t writes back is block t of the result. -/
theorem flushed_eq (c : Dev nD) (t : Fin cfg0.N) :
    (dats m 0 c).flushed 3 t = ((cfg0.win 3).blk t).view.read (Elt Ideal) (target m c) := by
  rw [Value.flushed3]
  unfold out0_3
  rw [View.canon_unit_zero zero2]
  simp only [View.ld_unit_zero (S := S240x128) zero2, View.ld_unit_zero (S := S240x32x128) zero3]
  obtain ⟨-, -, -, -, -, -, -, -, e0, e1⟩ := block_index t
  have hN : cfg0.N = 125 := N_0
  have ht : t.val < 125 := by have := t.isLt; omega
  funext y
  obtain ⟨r, j, rfl⟩ : ∃ (r : Fin 240) (j : Fin 128), y = (ix2 r j : S240x128.Idx) := ⟨y 0, y 1, eq_ix2 (n0 := 240) (n1 := 128) y⟩
  have hb : t.val * 240 + r.val < 30000 := by have := r.isLt; omega
  refine (point_apply m c t r j hb).trans ?_
  rw [View.read_apply]
  refine congrArg (target m c) ?_
  funext a
  apply Fin.ext
  match a with
  | ⟨0, _⟩ => show t.val * 240 + r.val = win0_3.index t (0 : Fin 2) * 240 + 1 * r.val; rw [e0]; omega
  | ⟨1, _⟩ => show j.val = win0_3.index t (1 : Fin 2) * 128 + 1 * j.val; rw [e1]; omega

/-! ## The blocks cover the array -/

/-- An index of the array is in point t's block iff each coordinate is in the block's range on its axis. -/
theorem mem_block (t : Fin cfg0.N) (i : S30000x128.Idx) :
    i ∈ ((cfg0.win 3).blk t).view.set ↔ ∀ a : Fin 2, win0_3.index t a * S240x128.size a ≤ (i a).val ∧ (i a).val < win0_3.index t a * S240x128.size a + S240x128.size a := by
  show i ∈ ((View.whole main_v0).slice (win0_3.rect t)).set ↔ _
  rw [View.set_slice_whole, Rect.mem_set_unit]
  exact Iff.rfl

/-- Node n lies in the block of point n / 240. -/
theorem cover (i : S30000x128.Idx) : ∃ t : Fin cfg0.N, (cfg0.win 3).flush t = true ∧ i ∈ ((cfg0.win 3).blk t).view.set := by
  have hi0 : (i 0).val < 30000 := (i 0).isLt
  have hi1 : (i 1).val < 128 := (i 1).isLt
  have hN : cfg0.N = 125 := N_0
  have hq : (i 0).val / 240 < cfg0.N := by rw [hN]; omega
  obtain ⟨-, -, -, -, -, -, -, -, e0, e1⟩ := block_index ⟨(i 0).val / 240, hq⟩
  refine ⟨⟨(i 0).val / 240, hq⟩, flush0_3 _, ?_⟩
  rw [mem_block]
  intro a
  match a with
  | ⟨0, _⟩ =>
    show win0_3.index ⟨(i 0).val / 240, hq⟩ (0 : Fin 2) * 240 ≤ (i 0).val ∧ (i 0).val < win0_3.index ⟨(i 0).val / 240, hq⟩ (0 : Fin 2) * 240 + 240
    rw [e0]
    show (i 0).val / 240 * 240 ≤ (i 0).val ∧ (i 0).val < (i 0).val / 240 * 240 + 240
    omega
  | ⟨1, _⟩ =>
    show win0_3.index ⟨(i 0).val / 240, hq⟩ (1 : Fin 2) * 128 ≤ (i 1).val ∧ (i 1).val < win0_3.index ⟨(i 0).val / 240, hq⟩ (1 : Fin 2) * 128 + 128
    rw [e1]
    omega

/-- So after the run the result array is the whole-array function of the arguments. -/
theorem final (c : Dev nD) : (dats m 0 c).arrAt 3 cfg0.N = target m c :=
  (dats m 0 c).arrAt_eq_of_cover 3 (target m c) (fun t _ => flushed_eq m c t) cover

/-! ## The run, read -/

/-- Every weakly fair execution of the kernel's program terminates with the result array at the whole-array function
    of the arguments as launched, and the arguments unchanged. -/
theorem run : θ_run defs (onTc (τ := τ) (main (F := Ideal))) ⟨m, fun _ => 0, ρ⟩ fun r => ∀ c : Dev nD,
      r.2.mem ((c : Thread nD τ).loc main_v0) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Value.run_blocks m ρ)

end Cert.KernelIdeal.Array

end
-- ==== Proof.RefRun.lean ====
/-
  The reference program's run, read back.

  The reference is a straight line of host operations once its two outlined functions are unfolded at their call
  sites: the leaky rectifier (a comparison against zero, the slope times the operand, and inside it the select that
  picks between them). Listed in order they are thirty-two operations. Every weakly fair execution runs them one
  after the other, so the result buffer ends at the operations' composed value of the three argument arrays, and the
  arguments end as launched.

  The composed value is named stage by stage (the scores, the rectified scores, the shifted exponentials, the
  normalised weights, the result), each stage a function of the one before, so that later each can be read at an
  index by itself.
-/
import proofs.«161903_j1451698946380_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The scores [N, 32, 1]: the node's row laid over its 32 neighbours, added to the neighbours' rows, summed over
    the 128 features from the zero word, with a unit axis appended. -/
def scores (a0 : FVec F S30000x128 .f32) (a1 : FVec F S30000x32x128 .f32) : FVec F S30000x32x1 .f32 :=
  broadcastInDim S30000x32x1 ![0, 1] bcast_S30000x32_S30000x32x1_0_1
    (Host.reduceAdd
      (addf (broadcastInDim S30000x32x128 ![0, 1, 2] bcast_S30000x1x128_S30000x32x128_0_1_2
        (broadcastInDim S30000x1x128 ![0, 2] bcast_S30000x128_S30000x1x128_0_2 a0)) a1)
      (constant (F := F) S_ .f32 0x00000000#32) reducesTo_S30000x32x128_S30000x32_d2 h_S_)

/-- The rectified scores: the score where it is at least zero, the slope times the score elsewhere. -/
def rectified (s : FVec F S30000x32x1 .f32) : FVec F S30000x32x1 .f32 :=
  select (cmpf .oge s (broadcastInDim S30000x32x1 ![] bcast_S_S30000x32x1 (constant (F := F) S_ .f32 0x00000000#32)))
    s (mulf (broadcastInDim S30000x32x1 ![] bcast_S_S30000x32x1 (id (constant (F := F) S_ .f32 0x3C23D70A#32))) s)

/-- The exponentials of the rectified scores less their maximum over the neighbours (the maximum folded from the
    word of −∞ and taken once more against that word, then laid back over the neighbours). -/
def shiftedExp (l : FVec F S30000x32x1 .f32) : FVec F S30000x32x1 .f32 :=
  Host.exp (subf l
    (broadcastInDim S30000x32x1 ![0, 1, 2] bcast_S30000x1x1_S30000x32x1_0_1_2
      (broadcastInDim S30000x1x1 ![0, 2] bcast_S30000x1_S30000x1x1_0_2
        (maximumf (broadcastInDim S30000x1 ![] bcast_S_S30000x1 (constant (F := F) S_ .f32 0xFF800000#32))
          (Host.reduce FloatOps.maximumf l (constant (F := F) S_ .f32 0xFF800000#32) reducesTo_S30000x32x1_S30000x1_d1 h_S_)))))

/-- The weights: each exponential divided by the sum of the node's exponentials (summed from the zero word). -/
def normalised (e : FVec F S30000x32x1 .f32) : FVec F S30000x32x1 .f32 :=
  Host.divf e
    (broadcastInDim S30000x32x1 ![0, 1, 2] bcast_S30000x1x1_S30000x32x1_0_1_2
      (broadcastInDim S30000x1x1 ![0, 2] bcast_S30000x1_S30000x1x1_0_2
        (Host.reduceAdd e (constant (F := F) S_ .f32 0x00000000#32) reducesTo_S30000x32x1_S30000x1_d1 h_S_)))

/-- The result [N, 128]: the weights laid over the 128 columns, times the messages, summed over the neighbours
    from the zero word. -/
def weightedSum (w : FVec F S30000x32x1 .f32) (a2 : FVec F S30000x32x128 .f32) : FVec F S30000x128 .f32 :=
  Host.reduceAdd (mulf (broadcastInDim S30000x32x128 ![0, 1, 2] bcast_S30000x32x1_S30000x32x128_0_1_2 w) a2)
    (constant (F := F) S_ .f32 0x00000000#32) reducesTo_S30000x32x128_S30000x128_d1 h_S_

/-- What the reference returns, of its three arguments. -/
def result (a0 : FVec F S30000x128 .f32) (a1 a2 : FVec F S30000x32x128 .f32) : FVec F S30000x128 .f32 :=
  weightedSum (normalised (shiftedExp (rectified (scores a0 a1)))) a2

/-! ## The operations, in order -/

/-- @main's operations, the two calls unfolded: seven of its own up to the slope constant; the rectifier's six
    (its zero and the zero's broadcast, the comparison, the slope converted and broadcast, the product) and the
    select of the function it calls; then @main's remaining eighteen. -/
abbrev ops : List (HloOp τ sig (Elt F)) :=
  [ unary main_arg0 main_v0 (broadcastInDim S30000x1x128 ![0, 2] bcast_S30000x128_S30000x1x128_0_2 : (⟨S30000x128, .f32⟩ : BufTy).Contents (Elt F) → (⟨S30000x1x128, .f32⟩ : BufTy).Contents (Elt F)),
    unary main_v0 main_v1 (broadcastInDim S30000x32x128 ![0, 1, 2] bcast_S30000x1x128_S30000x32x128_0_1_2 : (⟨S30000x1x128, .f32⟩ : BufTy).Contents (Elt F) → (⟨S30000x32x128, .f32⟩ : BufTy).Contents (Elt F)),
    binary main_v1 main_arg1 main_v2 (addf : (⟨S30000x32x128, .f32⟩ : BufTy).Contents (Elt F) → (⟨S30000x32x128, .f32⟩ : BufTy).Contents (Elt F) → (⟨S30000x32x128, .f32⟩ : BufTy).Contents (Elt F)),
    nullary main_cst (constant S_ .f32 0x00000000#32),
    binary main_v2 main_cst main_v3 ((fun x v => Host.reduceAdd x v reducesTo_S30000x32x128_S30000x32_d2 h_S_) : (⟨S30000x32x128, .f32⟩ : BufTy).Contents (Elt F) → (⟨S_, .f32⟩ : BufTy).Contents (Elt F) → (⟨S30000x32, .f32⟩ : BufTy).Contents (Elt F)),
    unary main_v3 main_v4 (broadcastInDim S30000x32x1 ![0, 1] bcast_S30000x32_S30000x32x1_0_1 : (⟨S30000x32, .f32⟩ : BufTy).Contents (Elt F) → (⟨S30000x32x1, .f32⟩ : BufTy).Contents (Elt F)),
    nullary main_cst_0 (constant S_ .f32 0x3C23D70A#32),
    TRef.nullary main_call0.cst (constant S_ .f32 0x00000000#32),
    TRef.unary main_call0.cst main_call0.v0 (broadcastInDim S30000x32x1 ![] bcast_S_S30000x32x1),
    TRef.binary (.of main_v4) main_call0.v0 main_call0.v1 (cmpf .oge),
    TRef.unary (.of main_cst_0) main_call0.v2 id,
    TRef.unary main_call0.v2 main_call0.v3 (broadcastInDim S30000x32x1 ![] bcast_S_S30000x32x1),
    TRef.binary main_call0.v3 (.of main_v4) main_call0.v4 mulf,
    TRef.ternary main_call0.v1 (.of main_v4) main_call0.v4 main_call0.call0.v0 select,
    nullary main_cst_1 (constant S_ .f32 0xFF800000#32),
    binary main_v5 main_cst_1 main_v6 ((fun x v => Host.reduce FloatOps.maximumf x v reducesTo_S30000x32x1_S30000x1_d1 h_S_) : (⟨S30000x32x1, .f32⟩ : BufTy).Contents (Elt F) → (⟨S_, .f32⟩ : BufTy).Contents (Elt F) → (⟨S30000x1, .f32⟩ : BufTy).Contents (Elt F)),
    nullary main_cst_2 (constant S_ .f32 0xFF800000#32),
    unary main_cst_2 main_v7 (broadcastInDim S30000x1 ![] bcast_S_S30000x1 : (⟨S_, .f32⟩ : BufTy).Contents (Elt F) → (⟨S30000x1, .f32⟩ : BufTy).Contents (Elt F)),
    binary main_v7 main_v6 main_v8 (maximumf : (⟨S30000x1, .f32⟩ : BufTy).Contents (Elt F) → (⟨S30000x1, .f32⟩ : BufTy).Contents (Elt F) → (⟨S30000x1, .f32⟩ : BufTy).Contents (Elt F)),
    unary main_v8 main_v9 (broadcastInDim S30000x1x1 ![0, 2] bcast_S30000x1_S30000x1x1_0_2 : (⟨S30000x1, .f32⟩ : BufTy).Contents (Elt F) → (⟨S30000x1x1, .f32⟩ : BufTy).Contents (Elt F)),
    unary main_v9 main_v10 (broadcastInDim S30000x32x1 ![0, 1, 2] bcast_S30000x1x1_S30000x32x1_0_1_2 : (⟨S30000x1x1, .f32⟩ : BufTy).Contents (Elt F) → (⟨S30000x32x1, .f32⟩ : BufTy).Contents (Elt F)),
    binary main_v5 main_v10 main_v11 (subf : (⟨S30000x32x1, .f32⟩ : BufTy).Contents (Elt F) → (⟨S30000x32x1, .f32⟩ : BufTy).Contents (Elt F) → (⟨S30000x32x1, .f32⟩ : BufTy).Contents (Elt F)),
    unary main_v11 main_v12 (Host.exp : (⟨S30000x32x1, .f32⟩ : BufTy).Contents (Elt F) → (⟨S30000x32x1, .f32⟩ : BufTy).Contents (Elt F)),
    nullary main_cst_3 (constant S_ .f32 0x00000000#32),
    binary main_v12 main_cst_3 main_v13 ((fun x v => Host.reduceAdd x v reducesTo_S30000x32x1_S30000x1_d1 h_S_) : (⟨S30000x32x1, .f32⟩ : BufTy).Contents (Elt F) → (⟨S_, .f32⟩ : BufTy).Contents (Elt F) → (⟨S30000x1, .f32⟩ : BufTy).Contents (Elt F)),
    unary main_v13 main_v14 (broadcastInDim S30000x1x1 ![0, 2] bcast_S30000x1_S30000x1x1_0_2 : (⟨S30000x1, .f32⟩ : BufTy).Contents (Elt F) → (⟨S30000x1x1, .f32⟩ : BufTy).Contents (Elt F)),
    unary main_v14 main_v15 (broadcastInDim S30000x32x1 ![0, 1, 2] bcast_S30000x1x1_S30000x32x1_0_1_2 : (⟨S30000x1x1, .f32⟩ : BufTy).Contents (Elt F) → (⟨S30000x32x1, .f32⟩ : BufTy).Contents (Elt F)),
    binary main_v12 main_v15 main_v16 (Host.divf : (⟨S30000x32x1, .f32⟩ : BufTy).Contents (Elt F) → (⟨S30000x32x1, .f32⟩ : BufTy).Contents (Elt F) → (⟨S30000x32x1, .f32⟩ : BufTy).Contents (Elt F)),
    unary main_v16 main_v17 (broadcastInDim S30000x32x128 ![0, 1, 2] bcast_S30000x32x1_S30000x32x128_0_1_2 : (⟨S30000x32x1, .f32⟩ : BufTy).Contents (Elt F) → (⟨S30000x32x128, .f32⟩ : BufTy).Contents (Elt F)),
    binary main_v17 main_arg2 main_v18 (mulf : (⟨S30000x32x128, .f32⟩ : BufTy).Contents (Elt F) → (⟨S30000x32x128, .f32⟩ : BufTy).Contents (Elt F) → (⟨S30000x32x128, .f32⟩ : BufTy).Contents (Elt F)),
    nullary main_cst_4 (constant S_ .f32 0x00000000#32),
    binary main_v18 main_cst_4 main_v19 ((fun x v => Host.reduceAdd x v reducesTo_S30000x32x128_S30000x128_d1 h_S_) : (⟨S30000x32x128, .f32⟩ : BufTy).Contents (Elt F) → (⟨S_, .f32⟩ : BufTy).Contents (Elt F) → (⟨S30000x128, .f32⟩ : BufTy).Contents (Elt F)) ]

set_option maxRecDepth 1024 in
/-- @main is that straight line: the two functions' bodies unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., nullary_bufs_sub .., binary_bufs_sub .., unary_bufs_sub ..,
    nullary_bufs_sub .., nullary_bufs_sub .., unary_bufs_sub .., binary_bufs_sub .., unary_bufs_sub .., unary_bufs_sub ..,
    binary_bufs_sub .., ternary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., unary_bufs_sub .., binary_bufs_sub ..,
    nullary_bufs_sub .., binary_bufs_sub ..⟩

/-- On every device, from any memory with zero counters: every weakly fair execution of @main terminates with the
    result buffer at `result` of the three argument arrays as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v19).trans (by
        after_results_simp
        unfold result weightedSum normalised shiftedExp rectified scores
        rfl),
      (h c main_arg0).trans (by after_results_simp),
      (h c main_arg1).trans (by after_results_simp),
      (h c main_arg2).trans (by after_results_simp)⟩)
    (run_seq scopedRefs_eq scopedSems_eq defs main (fun _ => ops) main_eq (fun _ => ops_sub) m ρ)

end Cert.ReferenceIdeal.HostRun

end
-- ==== Proof.RefRow.lean ====
/-
  The reference's result at one entry.

  Each stage of the reference's composed value is read at an index:
  * the score of neighbour d of node n is the zero word plus the sum over the 128 features of the node's entry plus
    the neighbour's entry — the zero word is 0, and the sum of the entrywise sums is the two rows' sums added;
  * the rectified score, entry by entry;
  * the exponential of a rectified score less the node's maximum, the maximum folded from the word of −∞ over the
    32 neighbours and taken once more against that word — which changes nothing, the fold being at least its seed;
  * the weight: the exponential divided by the zero word plus the node's sum of exponentials;
  * the result at (n, j): the zero word plus the sum over the neighbours of weight times message.
  Composed, entry (n, j) is the attention of node n's row, its neighbours' rows and column j of its neighbours'
  messages.
-/
import proofs.«161903_j1451698946380_2_alg».proof.Proof.RefRun
import proofs.«161903_j1451698946380_2_alg».proof.Proof.Attention
import Idealize.ShloMosaic.Lib.Pipeline.Value
import Idealize.ShloMosaic.Lib.ValueIdx
import Idealize.ShloMosaic.PureOps.Ideal.Laws

noncomputable section

open scoped BigOperators

namespace Cert.ReferenceIdeal.HostRow

open Cert.ReferenceIdeal Cert.ReferenceIdeal.Gen Cert.ReferenceIdeal.HostRun Idealize.ShloMosaic Idealize.ShloMosaic.ValueIdx Cert.GatRow

/-! ## The shape relations the reductions' index maps are read through -/

theorem reduces_features : S30000x32x128.Reduces [2] S30000x32 := by decide
theorem reduces_neighbours1 : S30000x32x1.Reduces [1] S30000x1 := by decide
theorem reduces_neighbours : S30000x32x128.Reduces [1] S30000x128 := by decide

/-! ## Layout steps read at an index -/

/-- A value over the nodes, given two unit axes and laid over the 32 neighbours, reads the node's entry. -/
theorem overNeighbours_apply (v : FVec Ideal S30000x1 .f32) (n : Fin 30000) (d : Fin 32) :
    broadcastInDim S30000x32x1 ![0, 1, 2] bcast_S30000x1x1_S30000x32x1_0_1_2
        (broadcastInDim S30000x1x1 ![0, 2] bcast_S30000x1_S30000x1x1_0_2 v) (ix3 n d (0 : Fin 1))
      = v (ix2 n (0 : Fin 1)) := by
  refine (broadcastInDim_apply _ bcast_S30000x1x1_S30000x32x1_0_1_2 _ (ix3 n d (0 : Fin 1)) (ix3 n (0 : Fin 1) (0 : Fin 1)) ?_).trans ?_
  · intro a; match a with | ⟨0, _⟩ => rfl | ⟨1, _⟩ => rfl | ⟨2, _⟩ => rfl
  · refine broadcastInDim_apply _ bcast_S30000x1_S30000x1x1_0_2 v (ix3 n (0 : Fin 1) (0 : Fin 1)) (ix2 n (0 : Fin 1)) ?_
    intro a; match a with | ⟨0, _⟩ => rfl | ⟨1, _⟩ => rfl

/-- The host's quotient at an index is the quotient of the entries. -/
theorem hostDivf_apply {s : Shape} (a b : FVec Ideal s .f32) (i : s.Idx) : Host.divf a b i = Ideal.div (a i) (b i) := rfl

/-! ## The stages read at an index -/

theorem scores_apply (a0 : FVec Ideal S30000x128 .f32) (a1 : FVec Ideal S30000x32x128 .f32) (n : Fin 30000) (d : Fin 32) :
    scores a0 a1 (ix3 n d (0 : Fin 1))
      = score (fun k : Fin 128 => a0 (ix2 n k)) (fun (d : Fin 32) (k : Fin 128) => a1 (ix3 n d k)) d := by
  unfold scores score
  refine (broadcastInDim_apply _ bcast_S30000x32_S30000x32x1_0_1 _ (ix3 n d (0 : Fin 1)) (ix2 n d) ?_).trans ?_
  · intro a; match a with | ⟨0, _⟩ => rfl | ⟨1, _⟩ => rfl
  · refine (Ideal.hostReduceAdd_single reducesTo_S30000x32x128_S30000x32_d2 reduces_features _ _ (ix2 n d)).trans ?_
    refine (congrArg₂ (fun u v : EReal => u + v) Ideal.ofBits_zero_f32 ?_).trans ((zero_add _).trans (sum_add_rows _ _))
    refine Finset.sum_congr rfl fun k _ => ?_
    refine (ValueIdx.addf_apply _ _ _).trans ?_
    refine congrArg₂ (fun u v : EReal => u + v) ?_ ?_
    · refine (broadcastInDim_apply _ bcast_S30000x1x128_S30000x32x128_0_1_2 _ _ (ix3 n (0 : Fin 1) k) ?_).trans ?_
      · intro a; match a with | ⟨0, _⟩ => rfl | ⟨1, _⟩ => rfl | ⟨2, _⟩ => rfl
      · refine broadcastInDim_apply _ bcast_S30000x128_S30000x1x128_0_2 a0 (ix3 n (0 : Fin 1) k) (ix2 n k) ?_
        intro a; match a with | ⟨0, _⟩ => rfl | ⟨1, _⟩ => rfl
    · exact congrArg a1 (funext fun a => Fin.ext (by match a with | ⟨0, _⟩ => rfl | ⟨1, _⟩ => rfl | ⟨2, _⟩ => rfl))

theorem rectified_apply (s : FVec Ideal S30000x32x1 .f32) (i : S30000x32x1.Idx) : rectified s i = leaky (s i) := rfl

theorem shiftedExp_apply (l : FVec Ideal S30000x32x1 .f32) (n : Fin 30000) (d : Fin 32) :
    shiftedExp l (ix3 n d (0 : Fin 1))
      = Ideal.exp (l (ix3 n d (0 : Fin 1)) - (Finset.univ : Finset (Fin 32)).fold max seed (fun d' : Fin 32 => l (ix3 n d' (0 : Fin 1)))) := by
  unfold shiftedExp
  refine congrArg (fun u : EReal => Ideal.exp (l (ix3 n d (0 : Fin 1)) - u)) ?_
  refine (overNeighbours_apply _ n d).trans ?_
  refine (ValueIdx.maximumf_apply _ _ _).trans ?_
  have hfold : Host.reduce FloatOps.maximumf l (constant (F := Ideal) S_ .f32 0xFF800000#32) reducesTo_S30000x32x1_S30000x1_d1 h_S_ (ix2 n (0 : Fin 1))
      = (Finset.univ : Finset (Fin 32)).fold max seed (fun d' : Fin 32 => l (ix3 n d' (0 : Fin 1))) := by
    refine (Host.reduce_eq_fold_single FloatOps.maximumf l _ reducesTo_S30000x32x1_S30000x1_d1 reduces_neighbours1 h_S_ (ix2 n (0 : Fin 1))).trans ?_
    exact congrArg ((Finset.univ : Finset (Fin 32)).fold max seed) (funext fun d' => congrArg l
      (funext fun a => Fin.ext (by match a with | ⟨0, _⟩ => rfl | ⟨1, _⟩ => rfl | ⟨2, _⟩ => rfl)))
  rw [hfold]
  exact max_eq_right ((Finset.le_fold_max seed).mpr (Or.inl le_rfl))

theorem normalised_apply (e : FVec Ideal S30000x32x1 .f32) (n : Fin 30000) (d : Fin 32) :
    normalised e (ix3 n d (0 : Fin 1))
      = Ideal.div (e (ix3 n d (0 : Fin 1))) (∑ d' : Fin 32, e (ix3 n d' (0 : Fin 1))) := by
  unfold normalised
  refine (hostDivf_apply _ _ _).trans ?_
  refine congrArg (fun u : EReal => Ideal.div (e (ix3 n d (0 : Fin 1))) u) ?_
  refine (overNeighbours_apply _ n d).trans ?_
  refine (Ideal.hostReduceAdd_single reducesTo_S30000x32x1_S30000x1_d1 reduces_neighbours1 _ _ (ix2 n (0 : Fin 1))).trans ?_
  refine (congrArg₂ (fun u v : EReal => u + v) Ideal.ofBits_zero_f32 ?_).trans (zero_add _)
  exact Finset.sum_congr rfl fun d' _ => congrArg e
    (funext fun a => Fin.ext (by match a with | ⟨0, _⟩ => rfl | ⟨1, _⟩ => rfl | ⟨2, _⟩ => rfl))

theorem weightedSum_apply (w : FVec Ideal S30000x32x1 .f32) (a2 : FVec Ideal S30000x32x128 .f32) (n : Fin 30000) (j : Fin 128) :
    weightedSum w a2 (ix2 n j) = ∑ d : Fin 32, w (ix3 n d (0 : Fin 1)) * a2 (ix3 n d j) := by
  unfold weightedSum
  refine (Ideal.hostReduceAdd_single reducesTo_S30000x32x128_S30000x128_d1 reduces_neighbours _ _ (ix2 n j)).trans ?_
  refine (congrArg₂ (fun u v : EReal => u + v) Ideal.ofBits_zero_f32 ?_).trans (zero_add _)
  refine Finset.sum_congr rfl fun d _ => ?_
  refine (ValueIdx.mulf_apply _ _ _).trans ?_
  refine congrArg₂ (fun u v : EReal => u * v) ?_ ?_
  · refine broadcastInDim_apply _ bcast_S30000x32x1_S30000x32x128_0_1_2 w _ (ix3 n d (0 : Fin 1)) ?_
    intro a; match a with | ⟨0, _⟩ => rfl | ⟨1, _⟩ => rfl | ⟨2, _⟩ => rfl
  · exact congrArg a2 (funext fun a => Fin.ext (by match a with | ⟨0, _⟩ => rfl | ⟨1, _⟩ => rfl | ⟨2, _⟩ => rfl))

/-! ## The result at an entry -/

/-- Entry (n, j) of what the reference returns is the attention of node n's row, its neighbours' rows and column j of
    its neighbours' messages. -/
theorem result_apply (a0 : FVec Ideal S30000x128 .f32) (a1 a2 : FVec Ideal S30000x32x128 .f32) (n : Fin 30000) (j : Fin 128) :
    result a0 a1 a2 (ix2 n j)
      = gat (fun k : Fin 128 => a0 (ix2 n k)) (fun (d : Fin 32) (k : Fin 128) => a1 (ix3 n d k)) (fun d : Fin 32 => a2 (ix3 n d j)) := by
  unfold result
  rw [weightedSum_apply]
  unfold gat attend weight peak
  simp only [normalised_apply, shiftedExp_apply, rectified_apply, scores_apply]

end Cert.ReferenceIdeal.HostRow

end
-- ==== Proof.lean ====
/-
  Graph attention over 30000 nodes with 32 neighbours each and 128 features: for every node the neighbours'
  scores (the sum over the features of the node's row plus the neighbour's row) pass through the leaky rectifier, a
  softmax over the neighbours turns them into weights, and the result row is the weighted sum of the neighbours'
  message rows.

  The kernel works through the nodes in 125 blocks of 240 and, inside a block, adds the lane sum of the node's row to
  the lane sums of the neighbours' rows; the reference adds the rows first and sums once, and takes its maximum once
  more against the word of −∞. At the ideal values both are ONE function of the three arrays, entry by entry
  (`Cert.GatRow.wholeOut`): addition on the extended reals is commutative and associative, so the sum of the entrywise
  sums is the sum of the two sums — no finiteness of the inputs is used —, the zero word is 0, and a fold of `max` is at
  least its seed.

  The three frames: the kernel's two programs have theirs whole from the launch and the body's run; the reference's is
  its run with the result dropped. The idealization rewrote nothing, so there is nothing to preserve.
-/
import proofs.«161903_j1451698946380_2_alg».proof.Defs
import proofs.«161903_j1451698946380_2_alg».proof.Proof.Gen.Kernel
import proofs.«161903_j1451698946380_2_alg».proof.Proof.Gen.Kernel.Skeleton
import proofs.«161903_j1451698946380_2_alg».proof.Proof.Gen.Kernel.Launch
import proofs.«161903_j1451698946380_2_alg».proof.Proof.Gen.Kernel.Points
import proofs.«161903_j1451698946380_2_alg».proof.Proof.Gen.Kernel.Frame
import proofs.«161903_j1451698946380_2_alg».proof.Proof.Gen.KernelIdeal
import proofs.«161903_j1451698946380_2_alg».proof.Proof.Gen.KernelIdeal.Skeleton
import proofs.«161903_j1451698946380_2_alg».proof.Proof.Gen.KernelIdeal.Launch
import proofs.«161903_j1451698946380_2_alg».proof.Proof.Gen.KernelIdeal.Points
import proofs.«161903_j1451698946380_2_alg».proof.Proof.Gen.KernelIdeal.Frame
import proofs.«161903_j1451698946380_2_alg».proof.Proof.Gen.KernelIdeal.Value
import proofs.«161903_j1451698946380_2_alg».proof.Proof.Gen.ReferenceIdeal
import proofs.«161903_j1451698946380_2_alg».proof.Proof.Gen.Pre_finite_inputs
import proofs.«161903_j1451698946380_2_alg».proof.Proof.KernelArray
import proofs.«161903_j1451698946380_2_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx Cert.GatRow

/-- The reference's composed value is the whole-array function: entry (n, j) of both is the attention of node n at
    column j. -/
theorem result_eq (a0 : FVec Ideal Cert.ReferenceIdeal.S30000x128 .f32) (a1 a2 : FVec Ideal Cert.ReferenceIdeal.S30000x32x128 .f32) :
    Cert.ReferenceIdeal.HostRun.result (F := Ideal) a0 a1 a2 = wholeOut a0 a1 a2 := by
  funext i
  obtain ⟨n, j, rfl⟩ : ∃ (n : Fin 30000) (j : Fin 128), i = ix2 n j := ⟨i 0, i 1, eq_ix2 i⟩
  exact (Cert.ReferenceIdeal.HostRow.result_apply a0 a1 a2 n j).trans (wholeOut_apply a0 a1 a2 n j).symm

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- From memories agreeing on the three arguments both programs end with the result array at the whole-array function
    of them: the kernel's by its blocks (`Cert.KernelIdeal.Array.run`), the reference's by its run and `result_eq`. -/
theorem algebraic : Cert.algebraic_KernelIdeal_ReferenceIdeal := by
  intro m ρ m' ρ' _ hagree
  refine ⟨fun c => Cert.KernelIdeal.Array.target m c, Cert.KernelIdeal.Array.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2]
  exact result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
